-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S600000 32) (main_arg2 : IVec S600000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S2000x128 : Shape := ⟨2, ![2000, 128]⟩
abbrev S2000x1 : Shape := ⟨2, ![2000, 1]⟩
abbrev S600000x128 : Shape := ⟨2, ![600000, 128]⟩
abbrev S1x128 : Shape := ⟨2, ![1, 128]⟩

abbrev nBuf : Space → Nat
  | .hbm => 67
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S600000, .f32⟩
  | .hbm, ⟨9, _⟩ => ⟨S_, .f32⟩
  | .hbm, ⟨10, _⟩ => ⟨S50000, .f32⟩
  | .hbm, ⟨11, _⟩ => ⟨S600000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S600000x1, .i32⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000x128, .f32⟩
  | .hbm, ⟨42, _⟩ => ⟨S_, .f32⟩
  | .hbm, ⟨43, _⟩ => ⟨S50000x128, .f32⟩
  | .hbm, ⟨44, _⟩ => ⟨S600000x1, .i32⟩
  | .hbm, ⟨45, _⟩ => ⟨S50000x128, .f32⟩
  | .hbm, ⟨46, _⟩ => ⟨S50000x1, .f32⟩
  | .hbm, ⟨47, _⟩ => ⟨S1x128, .f32⟩
  | .hbm, ⟨48, _⟩ => ⟨S50000x128, .f32⟩
  | .hbm, ⟨49, _⟩ => ⟨S50000x1, .f32⟩
  | .hbm, ⟨50, _⟩ => ⟨S50000x128, .f32⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S600000x128, .f32⟩
  | .hbm, ⟨60, _⟩ => ⟨S_, .f32⟩
  | .hbm, ⟨61, _⟩ => ⟨S50000x128, .f32⟩
  | .hbm, ⟨62, _⟩ => ⟨S600000x1, .i32⟩
  | .hbm, ⟨63, _⟩ => ⟨S50000x128, .f32⟩
  | .hbm, ⟨64, _⟩ => ⟨S50000x1, .f32⟩
  | .hbm, ⟨65, _⟩ => ⟨S1x128, .f32⟩
  | .hbm, ⟨66, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S128x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x1, .f32⟩
  | .local _ .vmem, ⟨23, _⟩ => ⟨S2000x1, .f32⟩
  | .local _ .vmem, ⟨24, _⟩ => ⟨S128x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_6 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_8 : Ref sig .tc := ⟨.hbm, 51, rfl⟩
abbrev main_v30 : Ref sig .tc := ⟨.hbm, 52, rfl⟩
abbrev main_v31 : Ref sig .tc := ⟨.hbm, 53, rfl⟩
abbrev main_c_9 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_10 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v39) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v42) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩

abbrev nBuf : Space → Nat
  | .hbm => 83
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S600000, .f32⟩
  | .hbm, ⟨9, _⟩ => ⟨S_, .f32⟩
  | .hbm, ⟨10, _⟩ => ⟨S50000, .f32⟩
  | .hbm, ⟨11, _⟩ => ⟨S600000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S600000x1, .i32⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S_, .i32⟩
  | .hbm, ⟨35, _⟩ => ⟨S600000, .i32⟩
  | .hbm, ⟨36, _⟩ => ⟨S600000, .i1⟩
  | .hbm, ⟨37, _⟩ => ⟨S_, .i32⟩
  | .hbm, ⟨38, _⟩ => ⟨S600000, .i32⟩
  | .hbm, ⟨39, _⟩ => ⟨S600000, .i32⟩
  | .hbm, ⟨40, _⟩ => ⟨S600000, .i32⟩
  | .hbm, ⟨41, _⟩ => ⟨S600000x1, .i32⟩
  | .hbm, ⟨42, _⟩ => ⟨S600000x128, .f32⟩
  | .hbm, ⟨43, _⟩ => ⟨S_, .f32⟩
  | .hbm, ⟨44, _⟩ => ⟨S50000x128, .f32⟩
  | .hbm, ⟨45, _⟩ => ⟨S600000x1, .i32⟩
  | .hbm, ⟨46, _⟩ => ⟨S50000x128, .f32⟩
  | .hbm, ⟨47, _⟩ => ⟨S50000x1, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000x128, .f32⟩
  | .hbm, ⟨56, _⟩ => ⟨S50000x128, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S_, .i32⟩
  | .hbm, ⟨61, _⟩ => ⟨S600000, .i32⟩
  | .hbm, ⟨62, _⟩ => ⟨S600000, .i1⟩
  | .hbm, ⟨63, _⟩ => ⟨S_, .i32⟩
  | .hbm, ⟨64, _⟩ => ⟨S600000, .i32⟩
  | .hbm, ⟨65, _⟩ => ⟨S600000, .i32⟩
  | .hbm, ⟨66, _⟩ => ⟨S600000, .i32⟩
  | .hbm, ⟨67, _⟩ => ⟨S600000x1, .i32⟩
  | .hbm, ⟨68, _⟩ => ⟨S600000x128, .f32⟩
  | .hbm, ⟨69, _⟩ => ⟨S_, .f32⟩
  | .hbm, ⟨70, _⟩ => ⟨S50000x128, .f32⟩
  | .hbm, ⟨71, _⟩ => ⟨S600000x1, .i32⟩
  | .hbm, ⟨72, _⟩ => ⟨S50000x128, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_7 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_call3_cst : Ref sig .tc := ⟨.hbm, 80, rfl⟩
abbrev main_call3_v0 : Ref sig .tc := ⟨.hbm, 81, rfl⟩
abbrev main_v54 : Ref sig .tc := ⟨.hbm, 82, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RunResult.lean ====
/-
  The kernel program's run, with its result named.

  The program is twelve segments in a row: five stretches of host operations, the first scaling region, a stretch,
  the first dense region, a one-operation stretch, the second scaling region, a stretch, the second dense region.
  Every weakly fair execution runs them in order and ends with every buffer the program does not scope at the
  contents the last boundary of that walk gives it.  The frame statement keeps from that only the seven argument
  arrays; here the same run is stated keeping the result array as well, at the last boundary's contents.
-/
import proofs.«174286_j515396075767_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the last boundary's
    contents and the seven arguments as launched. -/
theorem run : θ_run defs (onTc (τ := τ) (main (F := F))) ⟨m, fun _ => 0, ρ⟩ (fun r => ∀ c : Dev nD,
      r.2.mem ((c.tc : Thread nD τ).loc main_v42) = W12 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v42 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c)⟩)

end Cert.KernelIdeal.Result

end
-- ==== Proof.LibMatmulPlain.lean ====
/-
  A matrix product into a zero accumulator, read at an entry, on the extended reals.

  For the plain dimension numbers (contract the left operand's axis 1 with the right operand's axis 0, no batch
  axes: an M x K matrix times a K x N matrix), the entry (p, q) of the product accumulated into the zero matrix is
  the sum over k of left (p, k) times right (k, q).  No program is imported: the dimension record is a variable,
  constrained only by its six lists.
-/
import Idealize.ShloMosaic.PureOps.Ideal.Laws
import Idealize.ShloMosaic.Lib.ValueIdx

noncomputable section

namespace Cert.LibMatmulPlain

open Idealize.ShloMosaic Idealize.ShloMosaic.ValueIdx

/-- Entry (p, q) of an M x K by K x N product into the zero accumulator is the sum over the contracted axis. -/
theorem matmul_zero_apply {M K N : ℕ} {φ₁ φ₂ : FTy}
    (D : DotDims ⟨2, ![M, K]⟩ ⟨2, ![K, N]⟩ ⟨2, ![M, N]⟩)
    (h1 : D.lhsContracting = [1]) (h2 : D.rhsContracting = [0])
    (h3 : D.lhsNonContracting = [0]) (h4 : D.rhsNonContracting = [1])
    (h5 : D.lhsBatch = []) (h6 : D.rhsBatch = [])
    (l : FVec Ideal ⟨2, ![M, K]⟩ φ₁) (r : FVec Ideal ⟨2, ![K, N]⟩ φ₂) (p : Fin M) (q : Fin N) :
    matmul D none l r (constant (F := Ideal) ⟨2, ![M, N]⟩ .f32 0x00000000#32) (ix2 p q)
      = ∑ k : Fin K, l (ix2 p k) * r (ix2 k q) := by
  obtain ⟨lc, rc, ln, rn, lb, rb, wf⟩ := D
  dsimp only at h1 h2 h3 h4 h5 h6
  subst h1 h2 h3 h4 h5 h6
  refine (Ideal.matmul_constant_zero_apply _ none l r (ix2 p q)).trans ?_
  rw [← Equiv.sum_comp (contrEquiv1 _ K rfl rfl).symm]
  refine Finset.sum_congr rfl fun k _ => ?_
  have hk := contrEquiv1_symm_val (DotDims.mk (sl := ⟨2, ![M, K]⟩) (sr := ⟨2, ![K, N]⟩) (so := ⟨2, ![M, N]⟩) [1] [0] [0] [1] [] [] wf) K rfl rfl k
  have el : (DotDims.mk (sl := ⟨2, ![M, K]⟩) (sr := ⟨2, ![K, N]⟩) (so := ⟨2, ![M, N]⟩) [1] [0] [0] [1] [] [] wf).lhsIdx (ix2 p q)
      ((contrEquiv1 _ K rfl rfl).symm k) = ix2 p k := funext fun a => Fin.ext (by
    match a with
    | ⟨0, _⟩ =>
      unfold DotDims.lhsIdx
      rw [dif_neg (show ¬ (⟨0, by decide⟩ : Fin 2) ∈ ([] : List (Fin 2)) from List.not_mem_nil),
        dif_pos (show (⟨0, by decide⟩ : Fin 2) ∈ ([0] : List (Fin 2)) from List.mem_singleton.2 rfl)]
      rfl
    | ⟨1, _⟩ => exact (DotDims.lhsIdx_val_of_single _ rfl _ _).trans hk)
  have er : (DotDims.mk (sl := ⟨2, ![M, K]⟩) (sr := ⟨2, ![K, N]⟩) (so := ⟨2, ![M, N]⟩) [1] [0] [0] [1] [] [] wf).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (show ¬ (⟨1, by decide⟩ : Fin 2) ∈ ([] : List (Fin 2)) from List.not_mem_nil),
        dif_pos (show (⟨1, by decide⟩ : Fin 2) ∈ ([1] : List (Fin 2)) from List.mem_singleton.2 rfl)]
      rfl)
  rw [el, er]

end Cert.LibMatmulPlain

end
-- ==== Proof.Payload.lean ====
/-
  What the four kernel bodies store, read at an entry of the 2000 x 128 block they store, on the extended reals.

  A scaling body multiplies its 2000 x 128 block by a 2000 x 1 column spread along the rows:
      entry (p, q) = block (p, q) * column (p, 0).
  A dense body scales its block the same way, narrows both factors to a shorter float format (the identity on the
  extended reals), multiplies by the 128 x 128 weight block into a zero accumulator, adds the 1 x 128 bias row
  spread down the columns, and takes the maximum with zero:
      entry (p, q) = max (sum over k of (block (p, k) * column (p, 0)) * weight (k, q) + bias (0, q)) 0.
-/
import proofs.«174286_j515396075767_1_alg».proof.Proof.Gen.KernelIdeal.Skeleton
import proofs.«174286_j515396075767_1_alg».proof.Proof.LibMatmulPlain
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- A 2000 x 1 column spread along the rows of a 2000 x 128 block, read at (p, q), is the column's entry p. -/
theorem spread_column (v : FVec Ideal S2000x1 .f32) (p : Fin 2000) (q : Fin 128) :
    broadcastTo S2000x128 v broadcasts_S2000x1_S2000x128 (ix2 p q) = v (ix2 p 0) :=
  broadcastTo_apply v broadcasts_S2000x1_S2000x128 (ix2 p q) (ix2 p 0) (fun a => match a with
    | ⟨0, _⟩ => by show p.val = if (2000 : Nat) = 1 then 0 else p.val; rw [if_neg (by decide)]
    | ⟨1, _⟩ => by show 0 = if (1 : Nat) = 1 then 0 else q.val; rw [if_pos rfl])

/-- A 1 x 128 row spread down the columns of a 2000 x 128 block, read at (p, q), is the row's entry q. -/
theorem spread_row (v : FVec Ideal S1x128 .f32) (p : Fin 2000) (q : Fin 128) :
    broadcastTo S2000x128 v broadcasts_S1x128_S2000x128 (ix2 p q) = v (ix2 0 q) :=
  broadcastTo_apply v broadcasts_S1x128_S2000x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The first scaling body's stored value at (p, q). -/
theorem scale_first (x0 : Vec Ideal S2000x128 .f32) (x1 : Vec Ideal S2000x1 .f32) (p : Fin 2000) (q : Fin 128) :
    k0_pay1 (F := Ideal) x0 x1 (ix2 p q) = x0 (ix2 p q) * x1 (ix2 p 0) := by
  unfold k0_pay1
  simp only [shapeCast_self]
  rw [mulf_apply, spread_column]

/-- The second scaling body's stored value at (p, q). -/
theorem scale_second (x0 : Vec Ideal S2000x128 .f32) (x1 : Vec Ideal S2000x1 .f32) (p : Fin 2000) (q : Fin 128) :
    k2_pay1 (F := Ideal) x0 x1 (ix2 p q) = x0 (ix2 p q) * x1 (ix2 p 0) := by
  unfold k2_pay1
  simp only [shapeCast_self]
  rw [mulf_apply, spread_column]

/-- The dense expression both dense bodies store, as a function of the four loaded blocks. -/
def denseBlock (x0 : Vec Ideal S2000x128 .f32) (x2 : Vec Ideal S2000x1 .f32) (x7 : Vec Ideal S128x128 .f32)
    (x10 : Vec Ideal S1x128 .f32) : FVec Ideal S2000x128 .f32 :=
  maximumf (addf (matmul dot_S2000x128_S128x128_S2000x128_1_0_0_1_n_n none
      (truncf .bf16 (mulf (shapeCast S2000x128 x0 shapeCasts_S2000x128_S2000x128)
        (broadcastTo S2000x128 (shapeCast S2000x1 x2 shapeCasts_S2000x1_S2000x1) broadcasts_S2000x1_S2000x128)) bitsLt_bf16_f32)
      (truncf .bf16 x7 bitsLt_bf16_f32) (constant S2000x128 .f32 0x00000000#32))
    (broadcastTo S2000x128 (shapeCast S1x128 x10 shapeCasts_S1x128_S1x128) broadcasts_S1x128_S2000x128))
    (broadcast S2000x128 (Scalar.ofBits .f32 0x00000000#32))

/-- The dense expression at (p, q): the scaled row p against column q of the weights, plus the bias, clipped at 0. -/
theorem denseBlock_apply (x0 : Vec Ideal S2000x128 .f32) (x2 : Vec Ideal S2000x1 .f32) (x7 : Vec Ideal S128x128 .f32)
    (x10 : Vec Ideal S1x128 .f32) (p : Fin 2000) (q : Fin 128) :
    denseBlock x0 x2 x7 x10 (ix2 p q)
      = max ((∑ k : Fin 128, (x0 (ix2 p k) * x2 (ix2 p 0)) * x7 (ix2 k q)) + x10 (ix2 0 q)) 0 := by
  unfold denseBlock
  simp only [shapeCast_self]
  rw [maximumf_apply, addf_apply, spread_row, broadcast_apply,
    Cert.LibMatmulPlain.matmul_zero_apply dot_S2000x128_S128x128_S2000x128_1_0_0_1_n_n rfl rfl rfl rfl rfl rfl]
  have hz : (Scalar.ofBits (F := Ideal) .f32 0x00000000#32 : EReal) = 0 := Ideal.ofBits_zero_f32
  rw [hz]
  refine congrArg (fun s => max (s + x10 (ix2 0 q)) 0) (Finset.sum_congr rfl fun k _ => ?_)
  rw [truncf_apply, truncf_apply, mulf_apply, spread_column]

/-- The first dense body stores the dense expression. -/
theorem dense_first (x0 : Vec Ideal S2000x128 .f32) (x2 : Vec Ideal S2000x1 .f32) (x7 : Vec Ideal S128x128 .f32)
    (x10 : Vec Ideal S1x128 .f32) : k1_pay1 (F := Ideal) x0 x2 x7 x10 = denseBlock x0 x2 x7 x10 := rfl

/-- The second dense body stores the dense expression. -/
theorem dense_second (x0 : Vec Ideal S2000x128 .f32) (x2 : Vec Ideal S2000x1 .f32) (x7 : Vec Ideal S128x128 .f32)
    (x10 : Vec Ideal S1x128 .f32) : k3_pay1 (F := Ideal) x0 x2 x7 x10 = denseBlock x0 x2 x7 x10 := rfl

end Cert.KernelIdeal.Body

end
-- ==== Proof.LayerSpec.lean ====
/-
  One graph-convolution layer on the extended reals, entry by entry.

  A layer takes node features h (50000 nodes, 128 features each), scales row i by the source norm of node i,
  sums the scaled rows along the edges (that aggregation is shared by both programs and is never opened here),
  scales row i of the aggregate by the destination norm of node i, multiplies by a 128 x 128 weight matrix, adds a
  bias to every row, and clips at zero from below.  The two entrywise pieces are stated here as plain functions
  of an index, with no program imported:

    scaleRows x n (i, j)      = x (i, j) * n i
    denseRelu a n W b (i, j)  = max (sum over k of (a (i, k) * n i) * W (k, j) + b j) 0

  Nothing here uses finiteness of an entry: the two programs compute these same expressions, summand by summand
  in the same order, so no law of the extended reals beyond reflexivity is needed to join them.
-/
import Idealize.ShloMosaic.PureOps.Ideal
import Idealize.ShloMosaic.Lib.ValueIdx

noncomputable section

open scoped BigOperators

namespace Cert.Gcn

open Idealize.ShloMosaic Idealize.ShloMosaic.ValueIdx

/-- The row of an entry of a 50000 x 128 matrix, as a number below 50000. -/
abbrev rowOf (i : (⟨2, ![50000, 128]⟩ : Shape).Idx) : Fin 50000 := ⟨(i 0).val, (i 0).isLt⟩
/-- The column of an entry of a 50000 x 128 matrix, as a number below 128. -/
abbrev colOf (i : (⟨2, ![50000, 128]⟩ : Shape).Idx) : Fin 128 := ⟨(i 1).val, (i 1).isLt⟩

/-- Every row of x multiplied by that row's entry of the vector n. -/
def scaleRows (x : (⟨2, ![50000, 128]⟩ : Shape).Idx → EReal) (n : (⟨1, ![50000]⟩ : Shape).Idx → EReal) :
    (⟨2, ![50000, 128]⟩ : Shape).Idx → EReal :=
  fun i => x i * n (ix1 (rowOf i))

/-- The dense half of a layer: rows of a scaled by n, times W, plus the bias b on every row, clipped below at 0. -/
def denseRelu (a : (⟨2, ![50000, 128]⟩ : Shape).Idx → EReal) (n : (⟨1, ![50000]⟩ : Shape).Idx → EReal)
    (W : (⟨2, ![128, 128]⟩ : Shape).Idx → EReal) (b : (⟨1, ![128]⟩ : Shape).Idx → EReal) :
    (⟨2, ![50000, 128]⟩ : Shape).Idx → EReal :=
  fun i => max ((∑ k : Fin 128, (a (ix2 (rowOf i) k) * n (ix1 (rowOf i))) * W (ix2 k (colOf i))) + b (ix1 (colOf i))) 0

end Cert.Gcn

end
-- ==== Proof.ScaleFirst.lean ====
/-
  The first scaling region, as one function of the arrays it finds on entry.

  The region runs its body at 25 grid points; point t reads rows 2000 t .. 2000 t + 1999 of a 50000 x 128 array and
  of a 50000 x 1 column, and writes the same rows of the result.  Entry (p, q) of what point t writes is the array's
  entry (2000 t + p, q) times the column's entry (2000 t + p, 0).  The 25 row blocks tile the result, so after the
  region the result holds, at every (i, j), array (i, j) * column (i, 0).

  The entry contents are a parameter V: nothing here looks at how the arrays were computed.
-/
import proofs.«174286_j515396075767_1_alg».proof.Proof.Gen.KernelIdeal.Frame
import proofs.«174286_j515396075767_1_alg».proof.Proof.Payload
import proofs.«174286_j515396075767_1_alg».proof.Proof.LayerSpec
import Idealize.ShloMosaic.Lib.Pipeline.Value

set_option maxRecDepth 16384

noncomputable section

namespace Cert.KernelIdeal.ScaleFirst

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Every row of a 50000 x 128 array times that row's entry of a 50000 x 1 column. -/
def scaled (x : S50000x128.Idx → EReal) (n : S50000x1.Idx → EReal) : S50000x128.Idx → EReal :=
  fun i => x i * n (ix2 (Cert.Gcn.rowOf i) (0 : Fin 1))

/-- One stored entry against the whole-array expression, given where the two loaded blocks sit in their arrays. -/
theorem scaled_point (A : S50000x128.Idx → EReal) (n : S50000x1.Idx → EReal)
    (x0 : Vec Ideal S2000x128 .f32) (x1 : Vec Ideal S2000x1 .f32) (i : S50000x128.Idx) (p : Fin 2000) (q : Fin 128)
    (h0 : x0 (ix2 p q) = A i) (h1 : x1 (ix2 p (0 : Fin 1)) = n (ix2 (Cert.Gcn.rowOf i) (0 : Fin 1))) :
    k0_pay1 (F := Ideal) x0 x1 (ix2 p q) = scaled A n i := by
  rw [Cert.KernelIdeal.Body.scale_first, h0, h1]
  rfl

/-- The three windows move together: at point t each is at block row t, block column 0. -/
theorem block_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is rows 2000 t .. 2000 t + 1999 of the scaled array. -/
theorem flushed_eq (c : Dev nD) (t : Fin cfg0.N) :
    (dat0 V c).flushed 2 t = ((cfg0.win 2).blk t).view.read (Elt Ideal) (scaled (V c main_arg0) (V c main_v13)) := by
  show (cfg0.win 2).cut (grid0.coords t) ((dat0 V c).after 2 t) = _
  rw [after0_2]
  unfold out0_2
  rw [View.canon_unit_zero origin]
  simp only [View.ld_unit_zero (S := S2000x128) origin, View.ld_unit_zero (S := S2000x1) origin]
  obtain ⟨e00, e01, e10, e11, e20, e21⟩ := block_rows t
  funext y
  obtain ⟨p, q, rfl⟩ : ∃ (p : Fin 2000) (q : Fin 128), y = ix2 p q := ⟨y 0, y 1, eq_ix2 y⟩
  refine scaled_point (V c main_arg0) (V c main_v13) (iblk0 V c 0 t) (iblk0 V c 1 t)
    (((cfg0.win 2).blk t).view.emb (ix2 p q)) p q ?_ ?_
  · show (V c main_arg0 : S50000x128.Idx → EReal) (((cfg0.win 0).blk t).view.emb (ix2 p q)) = _
    refine congrArg (V c main_arg0 : S50000x128.Idx → EReal) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * q.val = win0_2.index t (1 : Fin 2) * 128 + 1 * q.val; omega
  · show (V c main_v13 : S50000x1.Idx → EReal) (((cfg0.win 1).blk t).view.emb (ix2 p (0 : Fin 1))) = _
    refine congrArg (V c main_v13 : S50000x1.Idx → EReal) (funext fun a => Fin.ext ?_)
    match a with
    | ⟨0, _⟩ => show win0_1.index t (0 : Fin 2) * 2000 + 1 * p.val = win0_2.index t (0 : Fin 2) * 2000 + 1 * p.val; omega
    | ⟨1, _⟩ => show win0_1.index t (1 : Fin 2) * 1 + 1 * 0 = 0; omega

/-- An entry of the result lies in point t's block exactly when its coordinates are in the block's ranges. -/
theorem mem_block (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v14).slice (win0_2.rect t)).set ↔ _
  rw [View.set_slice_whole, Rect.mem_set_unit]
  exact Iff.rfl

/-- Row i of the result is written by point i / 2000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨-, -, -, -, e20, e21⟩ := block_rows t
  have ht : t.val = (i 0).val / 2000 := rfl
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the region the result array is the scaled array. -/
theorem final (c : Dev nD) : (dat0 V c).arrAt 2 cfg0.N = scaled (V c main_arg0) (V c main_v13) :=
  (dat0 V c).arrAt_eq_of_cover 2 (scaled (V c main_arg0) (V c main_v13)) (fun t _ => flushed_eq V c t) covered

end Cert.KernelIdeal.ScaleFirst

end
-- ==== Proof.ScaleSecond.lean ====
/-
  The second scaling region, as one function of the arrays it finds on entry.

  The region runs its body at 25 grid points; point t reads rows 2000 t .. 2000 t + 1999 of a 50000 x 128 array and
  of a 50000 x 1 column, and writes the same rows of the result.  Entry (p, q) of what point t writes is the array's
  entry (2000 t + p, q) times the column's entry (2000 t + p, 0).  The 25 row blocks tile the result, so after the
  region the result holds, at every (i, j), array (i, j) * column (i, 0).

  The entry contents are a parameter V: nothing here looks at how the arrays were computed.
-/
import proofs.«174286_j515396075767_1_alg».proof.Proof.Gen.KernelIdeal.Frame
import proofs.«174286_j515396075767_1_alg».proof.Proof.Payload
import proofs.«174286_j515396075767_1_alg».proof.Proof.LayerSpec
import Idealize.ShloMosaic.Lib.Pipeline.Value

set_option maxRecDepth 16384

noncomputable section

namespace Cert.KernelIdeal.ScaleSecond

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Every row of a 50000 x 128 array times that row's entry of a 50000 x 1 column. -/
def scaled (x : S50000x128.Idx → EReal) (n : S50000x1.Idx → EReal) : S50000x128.Idx → EReal :=
  fun i => x i * n (ix2 (Cert.Gcn.rowOf i) (0 : Fin 1))

/-- One stored entry against the whole-array expression, given where the two loaded blocks sit in their arrays. -/
theorem scaled_point (A : S50000x128.Idx → EReal) (n : S50000x1.Idx → EReal)
    (x0 : Vec Ideal S2000x128 .f32) (x1 : Vec Ideal S2000x1 .f32) (i : S50000x128.Idx) (p : Fin 2000) (q : Fin 128)
    (h0 : x0 (ix2 p q) = A i) (h1 : x1 (ix2 p (0 : Fin 1)) = n (ix2 (Cert.Gcn.rowOf i) (0 : Fin 1))) :
    k2_pay1 (F := Ideal) x0 x1 (ix2 p q) = scaled A n i := by
  rw [Cert.KernelIdeal.Body.scale_second, h0, h1]
  rfl

/-- The three windows move together: at point t each is at block row t, block column 0. -/
theorem block_rows : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is rows 2000 t .. 2000 t + 1999 of the scaled array. -/
theorem flushed_eq (c : Dev nD) (t : Fin cfg2.N) :
    (dat2 V c).flushed 2 t = ((cfg2.win 2).blk t).view.read (Elt Ideal) (scaled (V c main_v27) (V c main_v28)) := by
  show (cfg2.win 2).cut (grid2.coords t) ((dat2 V c).after 2 t) = _
  rw [after2_2]
  unfold out2_2
  rw [View.canon_unit_zero origin]
  simp only [View.ld_unit_zero (S := S2000x128) origin, View.ld_unit_zero (S := S2000x1) origin]
  obtain ⟨e00, e01, e10, e11, e20, e21⟩ := block_rows t
  funext y
  obtain ⟨p, q, rfl⟩ : ∃ (p : Fin 2000) (q : Fin 128), y = ix2 p q := ⟨y 0, y 1, eq_ix2 y⟩
  refine scaled_point (V c main_v27) (V c main_v28) (iblk2 V c 0 t) (iblk2 V c 1 t)
    (((cfg2.win 2).blk t).view.emb (ix2 p q)) p q ?_ ?_
  · show (V c main_v27 : S50000x128.Idx → EReal) (((cfg2.win 0).blk t).view.emb (ix2 p q)) = _
    refine congrArg (V c main_v27 : S50000x128.Idx → EReal) (funext fun a => Fin.ext ?_)
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * q.val = win2_2.index t (1 : Fin 2) * 128 + 1 * q.val; omega
  · show (V c main_v28 : S50000x1.Idx → EReal) (((cfg2.win 1).blk t).view.emb (ix2 p (0 : Fin 1))) = _
    refine congrArg (V c main_v28 : S50000x1.Idx → EReal) (funext fun a => Fin.ext ?_)
    match a with
    | ⟨0, _⟩ => show win2_1.index t (0 : Fin 2) * 2000 + 1 * p.val = win2_2.index t (0 : Fin 2) * 2000 + 1 * p.val; omega
    | ⟨1, _⟩ => show win2_1.index t (1 : Fin 2) * 1 + 1 * 0 = 0; omega

/-- An entry of the result lies in point t's block exactly when its coordinates are in the block's ranges. -/
theorem mem_block (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v29).slice (win2_2.rect t)).set ↔ _
  rw [View.set_slice_whole, Rect.mem_set_unit]
  exact Iff.rfl

/-- Row i of the result is written by point i / 2000. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  obtain ⟨-, -, -, -, e20, e21⟩ := block_rows t
  have ht : t.val = (i 0).val / 2000 := rfl
  refine ⟨t, flush2_2 t, ?_⟩
  rw [mem_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- After the region the result array is the scaled array. -/
theorem final (c : Dev nD) : (dat2 V c).arrAt 2 cfg2.N = scaled (V c main_v27) (V c main_v28) :=
  (dat2 V c).arrAt_eq_of_cover 2 (scaled (V c main_v27) (V c main_v28)) (fun t _ => flushed_eq V c t) covered

end Cert.KernelIdeal.ScaleSecond

end
-- ==== Proof.DenseFirst.lean ====
/-
  The first dense region, as one function of the arrays it finds on entry.

  The region runs its body at 25 grid points; point t reads rows 2000 t .. 2000 t + 1999 of a 50000 x 128 array and of
  a 50000 x 1 column, the whole 128 x 128 weight matrix and the whole 1 x 128 bias row, and writes the same rows of
  the result.  Entry (p, q) of what point t writes is

      max (sum over k of (array (2000 t + p, k) * column (2000 t + p, 0)) * weight (k, q) + bias (0, q)) 0,

  which depends on the point only through the row 2000 t + p.  The 25 row blocks tile the result, so after the
  region the result holds that expression at every (i, j), with i in place of 2000 t + p.

  The entry contents are a parameter V: nothing here looks at how the arrays were computed.
-/
import proofs.«174286_j515396075767_1_alg».proof.Proof.Gen.KernelIdeal.Frame
import proofs.«174286_j515396075767_1_alg».proof.Proof.Payload
import proofs.«174286_j515396075767_1_alg».proof.Proof.LayerSpec
import Idealize.ShloMosaic.Lib.Pipeline.Value

set_option maxRecDepth 16384

noncomputable section

open scoped BigOperators

namespace Cert.KernelIdeal.DenseFirst

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Rows of a scaled by a column, times the weights, plus the bias row on every row, clipped below at 0. -/
def dense (a : S50000x128.Idx → EReal) (n : S50000x1.Idx → EReal) (W : S128x128.Idx → EReal) (b : S1x128.Idx → EReal) :
    S50000x128.Idx → EReal :=
  fun i => max ((∑ k : Fin 128, (a (ix2 (Cert.Gcn.rowOf i) k) * n (ix2 (Cert.Gcn.rowOf i) (0 : Fin 1))) * W (ix2 k (Cert.Gcn.colOf i)))
    + b (ix2 (0 : Fin 1) (Cert.Gcn.colOf i))) 0

/-- One stored entry against the whole-array expression, given where the four loaded blocks sit in their arrays. -/
theorem dense_point (A : S50000x128.Idx → EReal) (n : S50000x1.Idx → EReal) (W : S128x128.Idx → EReal) (b : S1x128.Idx → EReal)
    (x0 : Vec Ideal S2000x128 .f32) (x2 : Vec Ideal S2000x1 .f32) (x7 : Vec Ideal S128x128 .f32) (x10 : Vec Ideal S1x128 .f32)
    (i : S50000x128.Idx) (p : Fin 2000) (q : Fin 128)
    (h0 : ∀ k : Fin 128, x0 (ix2 p k) = A (ix2 (Cert.Gcn.rowOf i) k))
    (h1 : x2 (ix2 p (0 : Fin 1)) = n (ix2 (Cert.Gcn.rowOf i) (0 : Fin 1)))
    (h2 : ∀ k : Fin 128, x7 (ix2 k q) = W (ix2 k (Cert.Gcn.colOf i)))
    (h3 : x10 (ix2 (0 : Fin 1) q) = b (ix2 (0 : Fin 1) (Cert.Gcn.colOf i))) :
    Cert.KernelIdeal.Body.denseBlock x0 x2 x7 x10 (ix2 p q) = dense A n W b i := by
  rw [Cert.KernelIdeal.Body.denseBlock_apply, h1, h3]
  unfold dense
  refine congrArg (fun s => max (s + b (ix2 (0 : Fin 1) (Cert.Gcn.colOf i))) 0) (Finset.sum_congr rfl fun k _ => ?_)
  rw [h0 k, h2 k]

/-- The row-blocked windows are at block row t, the weight and bias windows stay at their one block. -/
theorem block_rows : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is rows 2000 t .. 2000 t + 1999 of the dense expression of the entry arrays. -/
theorem flushed_eq (c : Dev nD) (t : Fin cfg1.N) :
    (dat1 V c).flushed 4 t = ((cfg1.win 4).blk t).view.read (Elt Ideal)
      (dense (V c main_v24) (V c main_v25) (V c main_arg3) (V c main_v26)) := by
  show (cfg1.win 4).cut (grid1.coords t) ((dat1 V c).after 4 t) = _
  rw [after1_4]
  unfold out1_4
  rw [View.canon_unit_zero origin]
  simp only [View.ld_unit_zero (S := S2000x128) origin, View.ld_unit_zero (S := S2000x1) origin,
    View.ld_unit_zero (S := S128x128) origin, View.ld_unit_zero (S := S1x128) origin]
  rw [Cert.KernelIdeal.Body.dense_first]
  obtain ⟨e00, e01, e10, e11, e20, e21, e30, e31, e40, e41⟩ := block_rows t
  funext y
  obtain ⟨p, q, rfl⟩ : ∃ (p : Fin 2000) (q : Fin 128), y = ix2 p q := ⟨y 0, y 1, eq_ix2 y⟩
  refine dense_point (V c main_v24) (V c main_v25) (V c main_arg3) (V c main_v26) (iblk1 V c 0 t) (iblk1 V c 1 t) (iblk1 V c 2 t)
    (iblk1 V c 3 t) (((cfg1.win 4).blk t).view.emb (ix2 p q)) p q ?_ ?_ ?_ ?_
  · intro k
    show (V c main_v24 : S50000x128.Idx → EReal) (((cfg1.win 0).blk t).view.emb (ix2 p k)) = _
    refine congrArg (V c main_v24 : S50000x128.Idx → EReal) (funext fun a => Fin.ext ?_)
    match a with
    | ⟨0, _⟩ => show win1_0.index t (0 : Fin 2) * 2000 + 1 * p.val = win1_4.index t (0 : Fin 2) * 2000 + 1 * p.val; omega
    | ⟨1, _⟩ => show win1_0.index t (1 : Fin 2) * 128 + 1 * k.val = k.val; omega
  · show (V c main_v25 : S50000x1.Idx → EReal) (((cfg1.win 1).blk t).view.emb (ix2 p (0 : Fin 1))) = _
    refine congrArg (V c main_v25 : S50000x1.Idx → EReal) (funext fun a => Fin.ext ?_)
    match a with
    | ⟨0, _⟩ => show win1_1.index t (0 : Fin 2) * 2000 + 1 * p.val = win1_4.index t (0 : Fin 2) * 2000 + 1 * p.val; omega
    | ⟨1, _⟩ => show win1_1.index t (1 : Fin 2) * 1 + 1 * 0 = 0; omega
  · intro k
    show (V c main_arg3 : S128x128.Idx → EReal) (((cfg1.win 2).blk t).view.emb (ix2 k q)) = _
    refine congrArg (V c main_arg3 : S128x128.Idx → EReal) (funext fun a => Fin.ext ?_)
    match a with
    | ⟨0, _⟩ => show win1_2.index t (0 : Fin 2) * 128 + 1 * k.val = k.val; omega
    | ⟨1, _⟩ => show win1_2.index t (1 : Fin 2) * 128 + 1 * q.val = win1_4.index t (1 : Fin 2) * 128 + 1 * q.val; omega
  · show (V c main_v26 : S1x128.Idx → EReal) (((cfg1.win 3).blk t).view.emb (ix2 (0 : Fin 1) q)) = _
    refine congrArg (V c main_v26 : S1x128.Idx → EReal) (funext fun a => Fin.ext ?_)
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega

/-- An entry of the result lies in point t's block exactly when its coordinates are in the block's ranges. -/
theorem mem_block (t : Fin cfg1.N) (i : S50000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v27).slice (win1_4.rect t)).set ↔ _
  rw [View.set_slice_whole, Rect.mem_set_unit]
  exact Iff.rfl

/-- Row i of the result is written by point i / 2000. -/
theorem covered (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, -, -, -, -, e40, e41⟩ := block_rows t
  have ht : t.val = (i 0).val / 2000 := rfl
  refine ⟨t, flush1_4 t, ?_⟩
  rw [mem_block]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- After the region the result array is the dense expression of the entry arrays. -/
theorem final (c : Dev nD) :
    (dat1 V c).arrAt 4 cfg1.N = dense (V c main_v24) (V c main_v25) (V c main_arg3) (V c main_v26) :=
  (dat1 V c).arrAt_eq_of_cover 4 (dense (V c main_v24) (V c main_v25) (V c main_arg3) (V c main_v26))
    (fun t _ => flushed_eq V c t) covered

end Cert.KernelIdeal.DenseFirst

end
-- ==== Proof.DenseSecond.lean ====
/-
  The second dense region, as one function of the arrays it finds on entry.

  The region runs its body at 25 grid points; point t reads rows 2000 t .. 2000 t + 1999 of a 50000 x 128 array and of
  a 50000 x 1 column, the whole 128 x 128 weight matrix and the whole 1 x 128 bias row, and writes the same rows of
  the result.  Entry (p, q) of what point t writes is

      max (sum over k of (array (2000 t + p, k) * column (2000 t + p, 0)) * weight (k, q) + bias (0, q)) 0,

  which depends on the point only through the row 2000 t + p.  The 25 row blocks tile the result, so after the
  region the result holds that expression at every (i, j), with i in place of 2000 t + p.

  The entry contents are a parameter V: nothing here looks at how the arrays were computed.
-/
import proofs.«174286_j515396075767_1_alg».proof.Proof.Gen.KernelIdeal.Frame
import proofs.«174286_j515396075767_1_alg».proof.Proof.Payload
import proofs.«174286_j515396075767_1_alg».proof.Proof.LayerSpec
import Idealize.ShloMosaic.Lib.Pipeline.Value

set_option maxRecDepth 16384

noncomputable section

open scoped BigOperators

namespace Cert.KernelIdeal.DenseSecond

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Rows of a scaled by a column, times the weights, plus the bias row on every row, clipped below at 0. -/
def dense (a : S50000x128.Idx → EReal) (n : S50000x1.Idx → EReal) (W : S128x128.Idx → EReal) (b : S1x128.Idx → EReal) :
    S50000x128.Idx → EReal :=
  fun i => max ((∑ k : Fin 128, (a (ix2 (Cert.Gcn.rowOf i) k) * n (ix2 (Cert.Gcn.rowOf i) (0 : Fin 1))) * W (ix2 k (Cert.Gcn.colOf i)))
    + b (ix2 (0 : Fin 1) (Cert.Gcn.colOf i))) 0

/-- One stored entry against the whole-array expression, given where the four loaded blocks sit in their arrays. -/
theorem dense_point (A : S50000x128.Idx → EReal) (n : S50000x1.Idx → EReal) (W : S128x128.Idx → EReal) (b : S1x128.Idx → EReal)
    (x0 : Vec Ideal S2000x128 .f32) (x2 : Vec Ideal S2000x1 .f32) (x7 : Vec Ideal S128x128 .f32) (x10 : Vec Ideal S1x128 .f32)
    (i : S50000x128.Idx) (p : Fin 2000) (q : Fin 128)
    (h0 : ∀ k : Fin 128, x0 (ix2 p k) = A (ix2 (Cert.Gcn.rowOf i) k))
    (h1 : x2 (ix2 p (0 : Fin 1)) = n (ix2 (Cert.Gcn.rowOf i) (0 : Fin 1)))
    (h2 : ∀ k : Fin 128, x7 (ix2 k q) = W (ix2 k (Cert.Gcn.colOf i)))
    (h3 : x10 (ix2 (0 : Fin 1) q) = b (ix2 (0 : Fin 1) (Cert.Gcn.colOf i))) :
    Cert.KernelIdeal.Body.denseBlock x0 x2 x7 x10 (ix2 p q) = dense A n W b i := by
  rw [Cert.KernelIdeal.Body.denseBlock_apply, h1, h3]
  unfold dense
  refine congrArg (fun s => max (s + b (ix2 (0 : Fin 1) (Cert.Gcn.colOf i))) 0) (Finset.sum_congr rfl fun k _ => ?_)
  rw [h0 k, h2 k]

/-- The row-blocked windows are at block row t, the weight and bias windows stay at their one block. -/
theorem block_rows : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is rows 2000 t .. 2000 t + 1999 of the dense expression of the entry arrays. -/
theorem flushed_eq (c : Dev nD) (t : Fin cfg3.N) :
    (dat3 V c).flushed 4 t = ((cfg3.win 4).blk t).view.read (Elt Ideal)
      (dense (V c main_v39) (V c main_v40) (V c main_arg5) (V c main_v41)) := by
  show (cfg3.win 4).cut (grid3.coords t) ((dat3 V c).after 4 t) = _
  rw [after3_4]
  unfold out3_4
  rw [View.canon_unit_zero origin]
  simp only [View.ld_unit_zero (S := S2000x128) origin, View.ld_unit_zero (S := S2000x1) origin,
    View.ld_unit_zero (S := S128x128) origin, View.ld_unit_zero (S := S1x128) origin]
  rw [Cert.KernelIdeal.Body.dense_second]
  obtain ⟨e00, e01, e10, e11, e20, e21, e30, e31, e40, e41⟩ := block_rows t
  funext y
  obtain ⟨p, q, rfl⟩ : ∃ (p : Fin 2000) (q : Fin 128), y = ix2 p q := ⟨y 0, y 1, eq_ix2 y⟩
  refine dense_point (V c main_v39) (V c main_v40) (V c main_arg5) (V c main_v41) (iblk3 V c 0 t) (iblk3 V c 1 t) (iblk3 V c 2 t)
    (iblk3 V c 3 t) (((cfg3.win 4).blk t).view.emb (ix2 p q)) p q ?_ ?_ ?_ ?_
  · intro k
    show (V c main_v39 : S50000x128.Idx → EReal) (((cfg3.win 0).blk t).view.emb (ix2 p k)) = _
    refine congrArg (V c main_v39 : S50000x128.Idx → EReal) (funext fun a => Fin.ext ?_)
    match a with
    | ⟨0, _⟩ => show win3_0.index t (0 : Fin 2) * 2000 + 1 * p.val = win3_4.index t (0 : Fin 2) * 2000 + 1 * p.val; omega
    | ⟨1, _⟩ => show win3_0.index t (1 : Fin 2) * 128 + 1 * k.val = k.val; omega
  · show (V c main_v40 : S50000x1.Idx → EReal) (((cfg3.win 1).blk t).view.emb (ix2 p (0 : Fin 1))) = _
    refine congrArg (V c main_v40 : S50000x1.Idx → EReal) (funext fun a => Fin.ext ?_)
    match a with
    | ⟨0, _⟩ => show win3_1.index t (0 : Fin 2) * 2000 + 1 * p.val = win3_4.index t (0 : Fin 2) * 2000 + 1 * p.val; omega
    | ⟨1, _⟩ => show win3_1.index t (1 : Fin 2) * 1 + 1 * 0 = 0; omega
  · intro k
    show (V c main_arg5 : S128x128.Idx → EReal) (((cfg3.win 2).blk t).view.emb (ix2 k q)) = _
    refine congrArg (V c main_arg5 : S128x128.Idx → EReal) (funext fun a => Fin.ext ?_)
    match a with
    | ⟨0, _⟩ => show win3_2.index t (0 : Fin 2) * 128 + 1 * k.val = k.val; omega
    | ⟨1, _⟩ => show win3_2.index t (1 : Fin 2) * 128 + 1 * q.val = win3_4.index t (1 : Fin 2) * 128 + 1 * q.val; omega
  · show (V c main_v41 : S1x128.Idx → EReal) (((cfg3.win 3).blk t).view.emb (ix2 (0 : Fin 1) q)) = _
    refine congrArg (V c main_v41 : S1x128.Idx → EReal) (funext fun a => Fin.ext ?_)
    match a with
    | ⟨0, _⟩ => show win3_3.index t (0 : Fin 2) * 1 + 1 * 0 = 0; omega
    | ⟨1, _⟩ => show win3_3.index t (1 : Fin 2) * 128 + 1 * q.val = win3_4.index t (1 : Fin 2) * 128 + 1 * q.val; omega

/-- An entry of the result lies in point t's block exactly when its coordinates are in the block's ranges. -/
theorem mem_block (t : Fin cfg3.N) (i : S50000x128.Idx) :
    i ∈ ((cfg3.win 4).blk t).view.set ↔ ∀ a : Fin 2, win3_4.index t a * S2000x128.size a ≤ (i a).val
      ∧ (i a).val < win3_4.index t a * S2000x128.size a + S2000x128.size a := by
  show i ∈ ((View.whole main_v42).slice (win3_4.rect t)).set ↔ _
  rw [View.set_slice_whole, Rect.mem_set_unit]
  exact Iff.rfl

/-- Row i of the result is written by point i / 2000. -/
theorem covered (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 25 := N_3
  let t : Fin cfg3.N := ⟨(i 0).val / 2000, by rw [hN]; omega⟩
  obtain ⟨-, -, -, -, -, -, -, -, e40, e41⟩ := block_rows t
  have ht : t.val = (i 0).val / 2000 := rfl
  refine ⟨t, flush3_4 t, ?_⟩
  rw [mem_block]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 128 ≤ (i 1).val ∧ (i 1).val < win3_4.index t (1 : Fin 2) * 128 + 128; omega

/-- After the region the result array is the dense expression of the entry arrays. -/
theorem final (c : Dev nD) :
    (dat3 V c).arrAt 4 cfg3.N = dense (V c main_v39) (V c main_v40) (V c main_arg5) (V c main_v41) :=
  (dat3 V c).arrAt_eq_of_cover 4 (dense (V c main_v39) (V c main_v40) (V c main_arg5) (V c main_v41))
    (fun t _ => flushed_eq V c t) covered

end Cert.KernelIdeal.DenseSecond

end
-- ==== Proof.KernelLayer.lean ====
/-
  The four regions' results as the layer's two functions.

  The regions read the norms as 50000 x 1 columns and the biases as 1 x 128 rows; the host operations before each
  region make those by recasting a vector of 50000 (or of 128) entries.  A vector recast as a column has, at
  (i, 0), the vector's entry i; recast as a row it has, at (0, j), the vector's entry j.  So a region's result over
  a recast norm and a recast bias is scaleRows, or denseRelu, of the vectors themselves.
-/
import proofs.«174286_j515396075767_1_alg».proof.Proof.ScaleFirst
import proofs.«174286_j515396075767_1_alg».proof.Proof.ScaleSecond
import proofs.«174286_j515396075767_1_alg».proof.Proof.DenseFirst
import proofs.«174286_j515396075767_1_alg».proof.Proof.DenseSecond
import proofs.«174286_j515396075767_1_alg».proof.Proof.LayerSpec
import Idealize.ShloMosaic.Lib.ValueLayout

noncomputable section

open scoped BigOperators

namespace Cert.KernelIdeal.Layer

open Cert.KernelIdeal Cert.KernelIdeal.Gen Idealize.ShloMosaic Idealize.ShloMosaic.ValueIdx Cert.Gcn

/-- A vector of a entries recast as an a x 1 column reads, at (i, u), the vector's entry i. -/
theorem column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

theorem scale_first_eq (x : S50000x128.Idx → EReal) (n : S50000.Idx → EReal) :
    ScaleFirst.scaled x (shapeCast S50000x1 n shapeCasts_S50000_S50000x1) = scaleRows x n := by
  funext i
  unfold ScaleFirst.scaled scaleRows
  exact congrArg (x i * ·) (column_apply n shapeCasts_S50000_S50000x1 (rowOf i) 0)

theorem scale_second_eq (x : S50000x128.Idx → EReal) (n : S50000.Idx → EReal) :
    ScaleSecond.scaled x (shapeCast S50000x1 n shapeCasts_S50000_S50000x1) = scaleRows x n := by
  funext i
  unfold ScaleSecond.scaled scaleRows
  exact congrArg (x i * ·) (column_apply n shapeCasts_S50000_S50000x1 (rowOf i) 0)

theorem dense_first_eq (a : S50000x128.Idx → EReal) (n : S50000.Idx → EReal) (W : S128x128.Idx → EReal) (b : S128.Idx → EReal) :
    DenseFirst.dense a (shapeCast S50000x1 n shapeCasts_S50000_S50000x1) W (shapeCast S1x128 b shapeCasts_S128_S1x128)
      = denseRelu a n W b := by
  funext i
  unfold DenseFirst.dense denseRelu
  simp only [column_apply n shapeCasts_S50000_S50000x1 (rowOf i) 0, shapeCast_a_1a_apply b shapeCasts_S128_S1x128 0 (colOf i)]

theorem dense_second_eq (a : S50000x128.Idx → EReal) (n : S50000.Idx → EReal) (W : S128x128.Idx → EReal) (b : S128.Idx → EReal) :
    DenseSecond.dense a (shapeCast S50000x1 n shapeCasts_S50000_S50000x1) W (shapeCast S1x128 b shapeCasts_S128_S1x128)
      = denseRelu a n W b := by
  funext i
  unfold DenseSecond.dense denseRelu
  simp only [column_apply n shapeCasts_S50000_S50000x1 (rowOf i) 0, shapeCast_a_1a_apply b shapeCasts_S128_S1x128 0 (colOf i)]

end Cert.KernelIdeal.Layer

end
-- ==== Proof.HostChain.lean ====
/-
  The host operations of the kernel program, stretch by stretch, as functions of the buffers they read.

  Two functions carry everything the host side computes from the edge lists:

    degreeNorm e  : count, for every node, the edges whose end (as listed in e) is that node; clip the count below at
                    one; raise it to the power -1/2.  (Out-degree norm from the source list, in-degree norm from the
                    destination list: one function.)
    aggregate h src dst : row r of the result is the sum, over the edges whose destination is r, of the row of h at
                    the edge's source (a negative source index counted from the end).

  Neither is opened anywhere: both programs apply them to equal arguments, which is all that is used.  The lemmas
  say, for ANY buffer contents V, what a stretch leaves in the buffers the regions and later stretches read, and
  that it leaves the other live buffers alone.
-/
import proofs.«174286_j515396075767_1_alg».proof.Proof.Gen.KernelIdeal.Launch
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo

variable {F : FTy → Type} [FloatOps F]

/-- Degree norm of an edge-end list: (max 1 (number of edges ending at the node)) ^ (-1/2), node by node. -/
def degreeNorm (e : (⟨S600000, .i32⟩ : BufTy).Contents (Elt F)) : (⟨S50000, .f32⟩ : BufTy).Contents (Elt F) :=
  Host.powf
    (maximumf (broadcastInDim S50000 ![] bcast_S_S50000 (id (constant S_ .f32 0x3F800000#32)))
      (Host.scatterAdd scatter_S50000_S600000x1_S600000_n_0_0_1
        (broadcastInDim S50000 ![] bcast_S_S50000 (constant S_ .f32 0x00000000#32))
        (broadcastInDim S600000x1 ![0] bcast_S600000_S600000x1_0 e)
        (broadcastInDim S600000 ![] bcast_S_S600000 (constant S_ .f32 0x3F800000#32))))
    (broadcastInDim S50000 ![] bcast_S_S50000 (constant S_ .f32 0xBF000000#32))

/-- Sum of the rows of h at the edges' sources into the edges' destinations. -/
def aggregate (h : (⟨S50000x128, .f32⟩ : BufTy).Contents (Elt F)) (src dst : (⟨S600000, .i32⟩ : BufTy).Contents (Elt F)) :
    (⟨S50000x128, .f32⟩ : BufTy).Contents (Elt F) :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst)
    (Host.gather gather_S50000x128_S600000x1_S600000x128_1_0_n_n_0_1_1128 h
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src)))

/-! ## Before the first region: the two norms and the first column -/

/-- The buffer contents after the five stretches before the first region, run in order from the contents V. -/
abbrev opened (V : Valuation τ sig (Elt F)) : Valuation τ sig (Elt F) :=
  after hostOps0_4 (after hostOps0_3 (after hostOps0_2 (after hostOps0_1 (after hostOps0 V))))

theorem opening_source_norm (V : Valuation τ sig (Elt F)) :
    opened V (Proc.devRef .tc main_v9) = degreeNorm (V (Proc.devRef .tc main_arg1)) := by
  after_results_simp <;> rfl

theorem opening_dest_norm (V : Valuation τ sig (Elt F)) :
    opened V (Proc.devRef .tc main_v12) = degreeNorm (V (Proc.devRef .tc main_arg2)) := by
  after_results_simp <;> rfl

theorem opening_column (V : Valuation τ sig (Elt F)) :
    opened V (Proc.devRef .tc main_v13)
      = shapeCast S50000x1 (degreeNorm (V (Proc.devRef .tc main_arg1))) shapeCasts_S50000_S50000x1 := by
  after_results_simp <;> rfl

theorem opening_keeps_arg0 (V : Valuation τ sig (Elt F)) :
    opened V (Proc.devRef .tc main_arg0) = V (Proc.devRef .tc main_arg0) := by
  after_results_simp
theorem opening_keeps_arg1 (V : Valuation τ sig (Elt F)) :
    opened V (Proc.devRef .tc main_arg1) = V (Proc.devRef .tc main_arg1) := by
  after_results_simp
theorem opening_keeps_arg2 (V : Valuation τ sig (Elt F)) :
    opened V (Proc.devRef .tc main_arg2) = V (Proc.devRef .tc main_arg2) := by
  after_results_simp
theorem opening_keeps_arg3 (V : Valuation τ sig (Elt F)) :
    opened V (Proc.devRef .tc main_arg3) = V (Proc.devRef .tc main_arg3) := by
  after_results_simp
theorem opening_keeps_arg4 (V : Valuation τ sig (Elt F)) :
    opened V (Proc.devRef .tc main_arg4) = V (Proc.devRef .tc main_arg4) := by
  after_results_simp
theorem opening_keeps_arg5 (V : Valuation τ sig (Elt F)) :
    opened V (Proc.devRef .tc main_arg5) = V (Proc.devRef .tc main_arg5) := by
  after_results_simp
theorem opening_keeps_arg6 (V : Valuation τ sig (Elt F)) :
    opened V (Proc.devRef .tc main_arg6) = V (Proc.devRef .tc main_arg6) := by
  after_results_simp

/-! ## Between the first scaling region and the first dense region -/

theorem first_aggregate (V : Valuation τ sig (Elt F)) :
    after hostOps1 V (Proc.devRef .tc main_v24)
      = aggregate (V (Proc.devRef .tc main_v14)) (V (Proc.devRef .tc main_arg1)) (V (Proc.devRef .tc main_arg2)) := by
  after_results_simp <;> rfl

theorem first_column (V : Valuation τ sig (Elt F)) :
    after hostOps1 V (Proc.devRef .tc main_v25)
      = shapeCast S50000x1 (V (Proc.devRef .tc main_v12)) shapeCasts_S50000_S50000x1 := by
  after_results_simp <;> rfl

theorem first_bias_row (V : Valuation τ sig (Elt F)) :
    after hostOps1 V (Proc.devRef .tc main_v26)
      = shapeCast S1x128 (V (Proc.devRef .tc main_arg4)) shapeCasts_S128_S1x128 := by
  after_results_simp <;> rfl

theorem first_keeps_arg1 (V : Valuation τ sig (Elt F)) :
    after hostOps1 V (Proc.devRef .tc main_arg1) = V (Proc.devRef .tc main_arg1) := by
  after_results_simp
theorem first_keeps_arg2 (V : Valuation τ sig (Elt F)) :
    after hostOps1 V (Proc.devRef .tc main_arg2) = V (Proc.devRef .tc main_arg2) := by
  after_results_simp
theorem first_keeps_arg3 (V : Valuation τ sig (Elt F)) :
    after hostOps1 V (Proc.devRef .tc main_arg3) = V (Proc.devRef .tc main_arg3) := by
  after_results_simp
theorem first_keeps_arg5 (V : Valuation τ sig (Elt F)) :
    after hostOps1 V (Proc.devRef .tc main_arg5) = V (Proc.devRef .tc main_arg5) := by
  after_results_simp
theorem first_keeps_arg6 (V : Valuation τ sig (Elt F)) :
    after hostOps1 V (Proc.devRef .tc main_arg6) = V (Proc.devRef .tc main_arg6) := by
  after_results_simp
theorem first_keeps_v9 (V : Valuation τ sig (Elt F)) :
    after hostOps1 V (Proc.devRef .tc main_v9) = V (Proc.devRef .tc main_v9) := by
  after_results_simp
theorem first_keeps_v12 (V : Valuation τ sig (Elt F)) :
    after hostOps1 V (Proc.devRef .tc main_v12) = V (Proc.devRef .tc main_v12) := by
  after_results_simp

/-! ## Between the first dense region and the second scaling region -/

theorem second_column (V : Valuation τ sig (Elt F)) :
    after hostOps2 V (Proc.devRef .tc main_v28)
      = shapeCast S50000x1 (V (Proc.devRef .tc main_v9)) shapeCasts_S50000_S50000x1 := by
  after_results_simp <;> rfl

theorem second_keeps_arg1 (V : Valuation τ sig (Elt F)) :
    after hostOps2 V (Proc.devRef .tc main_arg1) = V (Proc.devRef .tc main_arg1) := by
  after_results_simp
theorem second_keeps_arg2 (V : Valuation τ sig (Elt F)) :
    after hostOps2 V (Proc.devRef .tc main_arg2) = V (Proc.devRef .tc main_arg2) := by
  after_results_simp
theorem second_keeps_arg5 (V : Valuation τ sig (Elt F)) :
    after hostOps2 V (Proc.devRef .tc main_arg5) = V (Proc.devRef .tc main_arg5) := by
  after_results_simp
theorem second_keeps_arg6 (V : Valuation τ sig (Elt F)) :
    after hostOps2 V (Proc.devRef .tc main_arg6) = V (Proc.devRef .tc main_arg6) := by
  after_results_simp
theorem second_keeps_v12 (V : Valuation τ sig (Elt F)) :
    after hostOps2 V (Proc.devRef .tc main_v12) = V (Proc.devRef .tc main_v12) := by
  after_results_simp
theorem second_keeps_v27 (V : Valuation τ sig (Elt F)) :
    after hostOps2 V (Proc.devRef .tc main_v27) = V (Proc.devRef .tc main_v27) := by
  after_results_simp

/-! ## Between the second scaling region and the second dense region -/

theorem second_aggregate (V : Valuation τ sig (Elt F)) :
    after hostOps3 V (Proc.devRef .tc main_v39)
      = aggregate (V (Proc.devRef .tc main_v29)) (V (Proc.devRef .tc main_arg1)) (V (Proc.devRef .tc main_arg2)) := by
  after_results_simp <;> rfl

theorem third_column (V : Valuation τ sig (Elt F)) :
    after hostOps3 V (Proc.devRef .tc main_v40)
      = shapeCast S50000x1 (V (Proc.devRef .tc main_v12)) shapeCasts_S50000_S50000x1 := by
  after_results_simp <;> rfl

theorem second_bias_row (V : Valuation τ sig (Elt F)) :
    after hostOps3 V (Proc.devRef .tc main_v41)
      = shapeCast S1x128 (V (Proc.devRef .tc main_arg6)) shapeCasts_S128_S1x128 := by
  after_results_simp <;> rfl

theorem third_keeps_arg5 (V : Valuation τ sig (Elt F)) :
    after hostOps3 V (Proc.devRef .tc main_arg5) = V (Proc.devRef .tc main_arg5) := by
  after_results_simp

end Cert.KernelIdeal.Host

end
-- ==== Proof.KernelValue.lean ====
/-
  The kernel program's result as one function of its seven arguments.

  The buffer contents are followed through the twelve segments of the program.  At each boundary only a few
  buffers matter: the edge lists and the weights and biases not yet used (no segment writes them), the two degree
  norms (written once, before the first region), and the one matrix the next segment reads.  That matrix is, in
  order: the features with rows scaled by the source norm; its aggregate along the edges; the first layer's output
  (the dense half over that aggregate); that output with rows scaled by the source norm; its aggregate; and the
  second layer's output, which is the program's result.
-/
import proofs.«174286_j515396075767_1_alg».proof.Proof.Gen.KernelIdeal.Frame
import proofs.«174286_j515396075767_1_alg».proof.Proof.KernelLayer
import proofs.«174286_j515396075767_1_alg».proof.Proof.HostChain

set_option maxRecDepth 16384

noncomputable section

namespace Cert.KernelIdeal.Walk

open Cert.KernelIdeal Cert.KernelIdeal.Gen Idealize.ShloMosaic Idealize.ShloMosaic.TcCoe Idealize.SL.Sem
open Idealize.ShloMosaic.StableHlo Cert.KernelIdeal.Host Cert.KernelIdeal.Layer Cert.Gcn

variable (m : (ℓ : Loc nD τ sig) → Buf (Elt Ideal) ℓ) (ρ : Dev nD → PrngReg) (c : Dev nD)

/-- The first layer's output: the dense half over the aggregate of the source-scaled features. -/
def hidden (m : (ℓ : Loc nD τ sig) → Buf (Elt Ideal) ℓ) (c : Dev nD) : S50000x128.Idx → EReal :=
  denseRelu (aggregate (F := Ideal) (scaleRows (m ((c : Thread nD τ).loc main_arg0)) (degreeNorm (F := Ideal) (m ((c : Thread nD τ).loc main_arg1)))) (m ((c : Thread nD τ).loc main_arg1)) (m ((c : Thread nD τ).loc main_arg2)))
    (degreeNorm (F := Ideal) (m ((c : Thread nD τ).loc main_arg2))) (m ((c : Thread nD τ).loc main_arg3)) (m ((c : Thread nD τ).loc main_arg4))

/-- The second layer's output: the same over the first layer's output, with the second weights and bias. -/
def output (m : (ℓ : Loc nD τ sig) → Buf (Elt Ideal) ℓ) (c : Dev nD) : S50000x128.Idx → EReal :=
  denseRelu (aggregate (F := Ideal) (scaleRows (hidden m c) (degreeNorm (F := Ideal) (m ((c : Thread nD τ).loc main_arg1)))) (m ((c : Thread nD τ).loc main_arg1)) (m ((c : Thread nD τ).loc main_arg2)))
    (degreeNorm (F := Ideal) (m ((c : Thread nD τ).loc main_arg2))) (m ((c : Thread nD τ).loc main_arg5)) (m ((c : Thread nD τ).loc main_arg6))

/-! ## Entering the first scaling region -/

theorem enter1_arg0 : W5 m ρ c (Proc.devRef .tc main_arg0) = m ((c : Thread nD τ).loc main_arg0) := opening_keeps_arg0 (W0 m ρ c)
theorem enter1_arg1 : W5 m ρ c (Proc.devRef .tc main_arg1) = m ((c : Thread nD τ).loc main_arg1) := opening_keeps_arg1 (W0 m ρ c)
theorem enter1_arg2 : W5 m ρ c (Proc.devRef .tc main_arg2) = m ((c : Thread nD τ).loc main_arg2) := opening_keeps_arg2 (W0 m ρ c)
theorem enter1_arg3 : W5 m ρ c (Proc.devRef .tc main_arg3) = m ((c : Thread nD τ).loc main_arg3) := opening_keeps_arg3 (W0 m ρ c)
theorem enter1_arg4 : W5 m ρ c (Proc.devRef .tc main_arg4) = m ((c : Thread nD τ).loc main_arg4) := opening_keeps_arg4 (W0 m ρ c)
theorem enter1_arg5 : W5 m ρ c (Proc.devRef .tc main_arg5) = m ((c : Thread nD τ).loc main_arg5) := opening_keeps_arg5 (W0 m ρ c)
theorem enter1_arg6 : W5 m ρ c (Proc.devRef .tc main_arg6) = m ((c : Thread nD τ).loc main_arg6) := opening_keeps_arg6 (W0 m ρ c)
theorem enter1_v9 : W5 m ρ c (Proc.devRef .tc main_v9) = degreeNorm (m ((c : Thread nD τ).loc main_arg1)) := opening_source_norm (W0 m ρ c)
theorem enter1_v12 : W5 m ρ c (Proc.devRef .tc main_v12) = degreeNorm (m ((c : Thread nD τ).loc main_arg2)) := opening_dest_norm (W0 m ρ c)
theorem enter1_column : W5 m ρ c (Proc.devRef .tc main_v13)
    = shapeCast S50000x1 (degreeNorm (F := Ideal) (m ((c : Thread nD τ).loc main_arg1))) shapeCasts_S50000_S50000x1 := opening_column (W0 m ρ c)

/-! ## Leaving it: the features scaled by the source norm -/

theorem leave1_scaled : W6 m ρ c (Proc.devRef .tc main_v14) = scaleRows (m ((c : Thread nD τ).loc main_arg0)) (degreeNorm (F := Ideal) (m ((c : Thread nD τ).loc main_arg1))) := by
  refine (W6_arr m ρ c 2).trans ?_
  rw [ScaleFirst.final (V5 m ρ) c]
  show ScaleFirst.scaled (W5 m ρ c (Proc.devRef .tc main_arg0)) (W5 m ρ c (Proc.devRef .tc main_v13)) = _
  rw [enter1_arg0, enter1_column]
  exact scale_first_eq _ _
theorem leave1_arg1 : W6 m ρ c (Proc.devRef .tc main_arg1) = m ((c : Thread nD τ).loc main_arg1) :=
  (W6_of_ne m ρ c main_arg1 (by decide)).trans (enter1_arg1 m ρ c)
theorem leave1_arg2 : W6 m ρ c (Proc.devRef .tc main_arg2) = m ((c : Thread nD τ).loc main_arg2) :=
  (W6_of_ne m ρ c main_arg2 (by decide)).trans (enter1_arg2 m ρ c)
theorem leave1_arg3 : W6 m ρ c (Proc.devRef .tc main_arg3) = m ((c : Thread nD τ).loc main_arg3) :=
  (W6_of_ne m ρ c main_arg3 (by decide)).trans (enter1_arg3 m ρ c)
theorem leave1_arg4 : W6 m ρ c (Proc.devRef .tc main_arg4) = m ((c : Thread nD τ).loc main_arg4) :=
  (W6_of_ne m ρ c main_arg4 (by decide)).trans (enter1_arg4 m ρ c)
theorem leave1_arg5 : W6 m ρ c (Proc.devRef .tc main_arg5) = m ((c : Thread nD τ).loc main_arg5) :=
  (W6_of_ne m ρ c main_arg5 (by decide)).trans (enter1_arg5 m ρ c)
theorem leave1_arg6 : W6 m ρ c (Proc.devRef .tc main_arg6) = m ((c : Thread nD τ).loc main_arg6) :=
  (W6_of_ne m ρ c main_arg6 (by decide)).trans (enter1_arg6 m ρ c)
theorem leave1_v9 : W6 m ρ c (Proc.devRef .tc main_v9) = degreeNorm (m ((c : Thread nD τ).loc main_arg1)) :=
  (W6_of_ne m ρ c main_v9 (by decide)).trans (enter1_v9 m ρ c)
theorem leave1_v12 : W6 m ρ c (Proc.devRef .tc main_v12) = degreeNorm (m ((c : Thread nD τ).loc main_arg2)) :=
  (W6_of_ne m ρ c main_v12 (by decide)).trans (enter1_v12 m ρ c)

/-! ## Entering the first dense region: the aggregate, the destination norm as a column, the bias as a row -/

theorem enter2_aggregate : W7 m ρ c (Proc.devRef .tc main_v24)
    = aggregate (F := Ideal) (scaleRows (m ((c : Thread nD τ).loc main_arg0)) (degreeNorm (F := Ideal) (m ((c : Thread nD τ).loc main_arg1)))) (m ((c : Thread nD τ).loc main_arg1)) (m ((c : Thread nD τ).loc main_arg2)) := by
  refine (first_aggregate (W6 m ρ c)).trans ?_
  rw [leave1_scaled, leave1_arg1, leave1_arg2]
theorem enter2_column : W7 m ρ c (Proc.devRef .tc main_v25)
    = shapeCast S50000x1 (degreeNorm (F := Ideal) (m ((c : Thread nD τ).loc main_arg2))) shapeCasts_S50000_S50000x1 := by
  refine (first_column (W6 m ρ c)).trans ?_
  rw [leave1_v12]
theorem enter2_bias : W7 m ρ c (Proc.devRef .tc main_v26) = shapeCast S1x128 (m ((c : Thread nD τ).loc main_arg4)) shapeCasts_S128_S1x128 := by
  refine (first_bias_row (W6 m ρ c)).trans ?_
  rw [leave1_arg4]
theorem enter2_arg1 : W7 m ρ c (Proc.devRef .tc main_arg1) = m ((c : Thread nD τ).loc main_arg1) :=
  (first_keeps_arg1 (W6 m ρ c)).trans (leave1_arg1 m ρ c)
theorem enter2_arg2 : W7 m ρ c (Proc.devRef .tc main_arg2) = m ((c : Thread nD τ).loc main_arg2) :=
  (first_keeps_arg2 (W6 m ρ c)).trans (leave1_arg2 m ρ c)
theorem enter2_arg3 : W7 m ρ c (Proc.devRef .tc main_arg3) = m ((c : Thread nD τ).loc main_arg3) :=
  (first_keeps_arg3 (W6 m ρ c)).trans (leave1_arg3 m ρ c)
theorem enter2_arg5 : W7 m ρ c (Proc.devRef .tc main_arg5) = m ((c : Thread nD τ).loc main_arg5) :=
  (first_keeps_arg5 (W6 m ρ c)).trans (leave1_arg5 m ρ c)
theorem enter2_arg6 : W7 m ρ c (Proc.devRef .tc main_arg6) = m ((c : Thread nD τ).loc main_arg6) :=
  (first_keeps_arg6 (W6 m ρ c)).trans (leave1_arg6 m ρ c)
theorem enter2_v9 : W7 m ρ c (Proc.devRef .tc main_v9) = degreeNorm (m ((c : Thread nD τ).loc main_arg1)) :=
  (first_keeps_v9 (W6 m ρ c)).trans (leave1_v9 m ρ c)
theorem enter2_v12 : W7 m ρ c (Proc.devRef .tc main_v12) = degreeNorm (m ((c : Thread nD τ).loc main_arg2)) :=
  (first_keeps_v12 (W6 m ρ c)).trans (leave1_v12 m ρ c)

/-! ## Leaving it: the first layer's output -/

theorem leave2_v27 : W8 m ρ c (Proc.devRef .tc main_v27) = hidden m c := by
  refine (W8_arr m ρ c 4).trans ?_
  rw [DenseFirst.final (V7 m ρ) c]
  show DenseFirst.dense (W7 m ρ c (Proc.devRef .tc main_v24)) (W7 m ρ c (Proc.devRef .tc main_v25))
    (W7 m ρ c (Proc.devRef .tc main_arg3)) (W7 m ρ c (Proc.devRef .tc main_v26)) = _
  rw [enter2_aggregate, enter2_column, enter2_arg3, enter2_bias]
  exact dense_first_eq _ _ _ _
theorem leave2_arg1 : W8 m ρ c (Proc.devRef .tc main_arg1) = m ((c : Thread nD τ).loc main_arg1) :=
  (W8_of_ne m ρ c main_arg1 (by decide)).trans (enter2_arg1 m ρ c)
theorem leave2_arg2 : W8 m ρ c (Proc.devRef .tc main_arg2) = m ((c : Thread nD τ).loc main_arg2) :=
  (W8_of_ne m ρ c main_arg2 (by decide)).trans (enter2_arg2 m ρ c)
theorem leave2_arg5 : W8 m ρ c (Proc.devRef .tc main_arg5) = m ((c : Thread nD τ).loc main_arg5) :=
  (W8_of_ne m ρ c main_arg5 (by decide)).trans (enter2_arg5 m ρ c)
theorem leave2_arg6 : W8 m ρ c (Proc.devRef .tc main_arg6) = m ((c : Thread nD τ).loc main_arg6) :=
  (W8_of_ne m ρ c main_arg6 (by decide)).trans (enter2_arg6 m ρ c)
theorem leave2_v9 : W8 m ρ c (Proc.devRef .tc main_v9) = degreeNorm (m ((c : Thread nD τ).loc main_arg1)) :=
  (W8_of_ne m ρ c main_v9 (by decide)).trans (enter2_v9 m ρ c)
theorem leave2_v12 : W8 m ρ c (Proc.devRef .tc main_v12) = degreeNorm (m ((c : Thread nD τ).loc main_arg2)) :=
  (W8_of_ne m ρ c main_v12 (by decide)).trans (enter2_v12 m ρ c)

/-! ## Entering the second scaling region -/

theorem enter3_column : W9 m ρ c (Proc.devRef .tc main_v28)
    = shapeCast S50000x1 (degreeNorm (F := Ideal) (m ((c : Thread nD τ).loc main_arg1))) shapeCasts_S50000_S50000x1 := by
  refine (second_column (W8 m ρ c)).trans ?_
  rw [leave2_v9]
theorem enter3_arg1 : W9 m ρ c (Proc.devRef .tc main_arg1) = m ((c : Thread nD τ).loc main_arg1) :=
  (second_keeps_arg1 (W8 m ρ c)).trans (leave2_arg1 m ρ c)
theorem enter3_arg2 : W9 m ρ c (Proc.devRef .tc main_arg2) = m ((c : Thread nD τ).loc main_arg2) :=
  (second_keeps_arg2 (W8 m ρ c)).trans (leave2_arg2 m ρ c)
theorem enter3_arg5 : W9 m ρ c (Proc.devRef .tc main_arg5) = m ((c : Thread nD τ).loc main_arg5) :=
  (second_keeps_arg5 (W8 m ρ c)).trans (leave2_arg5 m ρ c)
theorem enter3_arg6 : W9 m ρ c (Proc.devRef .tc main_arg6) = m ((c : Thread nD τ).loc main_arg6) :=
  (second_keeps_arg6 (W8 m ρ c)).trans (leave2_arg6 m ρ c)
theorem enter3_v12 : W9 m ρ c (Proc.devRef .tc main_v12) = degreeNorm (m ((c : Thread nD τ).loc main_arg2)) :=
  (second_keeps_v12 (W8 m ρ c)).trans (leave2_v12 m ρ c)
theorem enter3_v27 : W9 m ρ c (Proc.devRef .tc main_v27) = hidden m c :=
  (second_keeps_v27 (W8 m ρ c)).trans (leave2_v27 m ρ c)

/-! ## Leaving it: the first layer's output scaled by the source norm -/

theorem leave3_scaled : W10 m ρ c (Proc.devRef .tc main_v29) = scaleRows (hidden m c) (degreeNorm (F := Ideal) (m ((c : Thread nD τ).loc main_arg1))) := by
  refine (W10_arr m ρ c 2).trans ?_
  rw [ScaleSecond.final (V9 m ρ) c]
  show ScaleSecond.scaled (W9 m ρ c (Proc.devRef .tc main_v27)) (W9 m ρ c (Proc.devRef .tc main_v28)) = _
  rw [enter3_v27, enter3_column]
  exact scale_second_eq _ _
theorem leave3_arg1 : W10 m ρ c (Proc.devRef .tc main_arg1) = m ((c : Thread nD τ).loc main_arg1) :=
  (W10_of_ne m ρ c main_arg1 (by decide)).trans (enter3_arg1 m ρ c)
theorem leave3_arg2 : W10 m ρ c (Proc.devRef .tc main_arg2) = m ((c : Thread nD τ).loc main_arg2) :=
  (W10_of_ne m ρ c main_arg2 (by decide)).trans (enter3_arg2 m ρ c)
theorem leave3_arg5 : W10 m ρ c (Proc.devRef .tc main_arg5) = m ((c : Thread nD τ).loc main_arg5) :=
  (W10_of_ne m ρ c main_arg5 (by decide)).trans (enter3_arg5 m ρ c)
theorem leave3_arg6 : W10 m ρ c (Proc.devRef .tc main_arg6) = m ((c : Thread nD τ).loc main_arg6) :=
  (W10_of_ne m ρ c main_arg6 (by decide)).trans (enter3_arg6 m ρ c)
theorem leave3_v12 : W10 m ρ c (Proc.devRef .tc main_v12) = degreeNorm (m ((c : Thread nD τ).loc main_arg2)) :=
  (W10_of_ne m ρ c main_v12 (by decide)).trans (enter3_v12 m ρ c)

/-! ## Entering the second dense region -/

theorem enter4_aggregate : W11 m ρ c (Proc.devRef .tc main_v39)
    = aggregate (F := Ideal) (scaleRows (hidden m c) (degreeNorm (F := Ideal) (m ((c : Thread nD τ).loc main_arg1)))) (m ((c : Thread nD τ).loc main_arg1)) (m ((c : Thread nD τ).loc main_arg2)) := by
  refine (second_aggregate (W10 m ρ c)).trans ?_
  rw [leave3_scaled, leave3_arg1, leave3_arg2]
theorem enter4_column : W11 m ρ c (Proc.devRef .tc main_v40)
    = shapeCast S50000x1 (degreeNorm (F := Ideal) (m ((c : Thread nD τ).loc main_arg2))) shapeCasts_S50000_S50000x1 := by
  refine (third_column (W10 m ρ c)).trans ?_
  rw [leave3_v12]
theorem enter4_bias : W11 m ρ c (Proc.devRef .tc main_v41) = shapeCast S1x128 (m ((c : Thread nD τ).loc main_arg6)) shapeCasts_S128_S1x128 := by
  refine (second_bias_row (W10 m ρ c)).trans ?_
  rw [leave3_arg6]
theorem enter4_arg5 : W11 m ρ c (Proc.devRef .tc main_arg5) = m ((c : Thread nD τ).loc main_arg5) :=
  (third_keeps_arg5 (W10 m ρ c)).trans (leave3_arg5 m ρ c)

/-! ## The result -/

/-- After the last region the result array holds the second layer's output. -/
theorem result : W12 m ρ c (Proc.devRef .tc main_v42) = output m c := by
  refine (W12_arr m ρ c 4).trans ?_
  rw [DenseSecond.final (V11 m ρ) c]
  show DenseSecond.dense (W11 m ρ c (Proc.devRef .tc main_v39)) (W11 m ρ c (Proc.devRef .tc main_v40))
    (W11 m ρ c (Proc.devRef .tc main_arg5)) (W11 m ρ c (Proc.devRef .tc main_v41)) = _
  rw [enter4_aggregate, enter4_column, enter4_arg5, enter4_bias]
  exact dense_second_eq _ _ _ _

end Cert.KernelIdeal.Walk

end
-- ==== Proof.RefLayer.lean ====
/-
  The reference program's four entrywise stages are the layer's two functions.

  Read one operation at a time, the reference computes, in each layer, rows of the features times the source norm,
  then (after the shared aggregation) rows of the aggregate times the destination norm, a matrix product with the
  weights, the bias spread over the rows, and the maximum with zero.  At an entry (i, j) the product reads row i of
  its left factor and column j of the weights; the norm spread over a row reads its entry i; the bias reads its
  entry j.  Those are exactly scaleRows and denseRelu.
-/
import proofs.«174286_j515396075767_1_alg».proof.Proof.Gen.ReferenceIdeal.Read
import proofs.«174286_j515396075767_1_alg».proof.Proof.LayerSpec
import Idealize.ShloMosaic.PureOps.Ideal.Laws

noncomputable section

open scoped BigOperators

namespace Cert.ReferenceIdeal.Layer

open Cert.ReferenceIdeal Cert.ReferenceIdeal.Read Idealize.ShloMosaic Idealize.ShloMosaic.ValueIdx
open Cert.Gcn

/-- An integer vector of one entry per edge. -/
abbrev Edges : Type := (⟨S600000, .i32⟩ : BufTy).Contents (Elt Ideal)
/-- A matrix of one row per node. -/
abbrev Rows : Type := (⟨S50000x128, .f32⟩ : BufTy).Contents (Elt Ideal)
/-- A weight matrix. -/
abbrev Weights : Type := (⟨S128x128, .f32⟩ : BufTy).Contents (Elt Ideal)
/-- A bias vector. -/
abbrev Bias : Type := (⟨S128, .f32⟩ : BufTy).Contents (Elt Ideal)

/-! ## Where each stage reads its operands -/

theorem norm_at_first (i : S50000x128.Idx) : idx_main_v13 (idx_main_v14 i) = ix1 (rowOf i) :=
  funext fun a => Fin.ext (by match a with | ⟨0, _⟩ => rfl)
theorem norm_at_second (i : S50000x128.Idx) : idx_main_v34 (idx_main_v35 i) = ix1 (rowOf i) :=
  funext fun a => Fin.ext (by match a with | ⟨0, _⟩ => rfl)

theorem left_first (i : S50000x128.Idx) (k : Fin 128) : lidx_main_v29 i k = ix2 (rowOf i) k :=
  funext fun a => Fin.ext (by match a with | ⟨0, _⟩ => rfl | ⟨1, _⟩ => rfl)
theorem right_first (i : S50000x128.Idx) (k : Fin 128) : ridx_main_v29 i k = ix2 k (colOf i) :=
  funext fun a => Fin.ext (by match a with | ⟨0, _⟩ => rfl | ⟨1, _⟩ => rfl)
theorem dest_norm_first (i : S50000x128.Idx) (k : Fin 128) : idx_main_v26 (idx_main_v27 (ix2 (rowOf i) k)) = ix1 (rowOf i) :=
  funext fun a => Fin.ext (by match a with | ⟨0, _⟩ => rfl)
theorem bias_first (i : S50000x128.Idx) : idx_main_v30 (idx_main_v31 i) = ix1 (colOf i) :=
  funext fun a => Fin.ext (by match a with | ⟨0, _⟩ => rfl)

theorem left_second (i : S50000x128.Idx) (k : Fin 128) : lidx_main_v50 i k = ix2 (rowOf i) k :=
  funext fun a => Fin.ext (by match a with | ⟨0, _⟩ => rfl | ⟨1, _⟩ => rfl)
theorem right_second (i : S50000x128.Idx) (k : Fin 128) : ridx_main_v50 i k = ix2 k (colOf i) :=
  funext fun a => Fin.ext (by match a with | ⟨0, _⟩ => rfl | ⟨1, _⟩ => rfl)
theorem dest_norm_second (i : S50000x128.Idx) (k : Fin 128) : idx_main_v47 (idx_main_v48 (ix2 (rowOf i) k)) = ix1 (rowOf i) :=
  funext fun a => Fin.ext (by match a with | ⟨0, _⟩ => rfl)
theorem bias_second (i : S50000x128.Idx) : idx_main_v51 (idx_main_v52 i) = ix1 (colOf i) :=
  funext fun a => Fin.ext (by match a with | ⟨0, _⟩ => rfl)

/-! ## The stages -/

/-- First layer: the features scaled by the source norm. -/
theorem scale_first (x0 : Rows) (x1 : Edges) :
    val_main_v15 (F := Ideal) x0 x1 = scaleRows x0 (val_main_v9 (F := Ideal) x1) := by
  funext i
  rw [val_main_v15_apply, val_main_v14_apply, val_main_v13_apply, norm_at_first]
  rfl

/-- Second layer: the first layer's output scaled by the source norm. -/
theorem scale_second (x0 : Rows) (x1 x2 : Edges) (x3 : Weights) (x4 : Bias) :
    val_main_v36 (F := Ideal) x0 x1 x2 x3 x4
      = scaleRows (val_main_v33 (F := Ideal) x0 x1 x2 x3 x4) (val_main_v9 (F := Ideal) x1) := by
  funext i
  rw [val_main_v36_apply, val_main_v35_apply, val_main_v34_apply, norm_at_second]
  rfl

/-- First layer: the dense half over the first aggregate. -/
theorem dense_first (x0 : Rows) (x1 x2 : Edges) (x3 : Weights) (x4 : Bias) :
    val_main_v33 (F := Ideal) x0 x1 x2 x3 x4
      = denseRelu (val_main_v25 (F := Ideal) x0 x1 x2) (val_main_v12 (F := Ideal) x2) x3 x4 := by
  funext i
  rw [val_main_v33_apply, val_main_v32_apply, val_main_v29_apply, val_main_v31_apply, val_main_v30_apply,
    val_main_call2_v0_apply, val_main_call2_cst_apply, bias_first]
  simp only [left_first, right_first, val_main_v28_apply, val_main_v27_apply, val_main_v26_apply, dest_norm_first]
  show max _ (Ideal.ofBits .f32 0x00000000#32) = _
  rw [Ideal.ofBits_zero_f32]
  rfl

/-- Second layer: the dense half over the second aggregate. -/
theorem dense_second (x0 : Rows) (x1 x2 : Edges) (x3 : Weights) (x4 : Bias) (x5 : Weights) (x6 : Bias) :
    val_main_v54 (F := Ideal) x0 x1 x2 x3 x4 x5 x6
      = denseRelu (val_main_v46 (F := Ideal) x0 x1 x2 x3 x4) (val_main_v12 (F := Ideal) x2) x5 x6 := by
  funext i
  rw [val_main_v54_apply, val_main_v53_apply, val_main_v50_apply, val_main_v52_apply, val_main_v51_apply,
    val_main_call3_v0_apply, val_main_call3_cst_apply, bias_second]
  simp only [left_second, right_second, val_main_v49_apply, val_main_v48_apply, val_main_v47_apply, dest_norm_second]
  show max _ (Ideal.ofBits .f32 0x00000000#32) = _
  rw [Ideal.ofBits_zero_f32]
  rfl

end Cert.ReferenceIdeal.Layer

end
-- ==== Proof.Bridge.lean ====
/-
  The reference program's result is the same expression of the seven arguments as the kernel program's.

  Both programs compute the two degree norms and the two edge aggregations with the same host operations; the
  reference's stages for them and the kernel side's functions degreeNorm and aggregate are the same terms, written over
  two copies of the same shape and dimension records.  With the reference's four entrywise stages read as
  scaleRows and denseRelu, its result unfolds, from the last stage back to the first, to

    denseRelu (aggregate (scaleRows (denseRelu (aggregate (scaleRows x (degreeNorm src)) src dst) (degreeNorm dst) W1 b1)
      (degreeNorm src)) src dst) (degreeNorm dst) W2 b2.
-/
import proofs.«174286_j515396075767_1_alg».proof.Proof.RefLayer
import proofs.«174286_j515396075767_1_alg».proof.Proof.HostChain

noncomputable section

namespace Cert.Bridge

open Idealize.ShloMosaic Cert.ReferenceIdeal.Read Cert.ReferenceIdeal.Layer Cert.Gcn
open Cert.KernelIdeal.Host (degreeNorm aggregate)

/-- The reference's source norm is the degree norm of the source list. -/
theorem norm_source (x1 : Edges) : val_main_v9 (F := Ideal) x1 = degreeNorm (F := Ideal) x1 := by
  unfold val_main_v9 val_main_v7 val_main_v8 val_main_cst_3 val_main_call0_v1 val_main_call0_v0 val_main_cst_2 val_main_v3
    val_main_v1 val_main_cst_0 val_main_v2 val_main_v0 val_main_cst degreeNorm
  rfl

/-- The reference's destination norm is the degree norm of the destination list. -/
theorem norm_dest (x2 : Edges) : val_main_v12 (F := Ideal) x2 = degreeNorm (F := Ideal) x2 := by
  unfold val_main_v12 val_main_v10 val_main_v11 val_main_cst_5 val_main_call1_v1 val_main_call1_v0 val_main_cst_4 val_main_v6
    val_main_v4 val_main_cst_1 val_main_v5 val_main_v0 val_main_cst degreeNorm
  rfl

/-- The reference's first aggregate is the aggregation of its source-scaled features. -/
theorem aggregate_first (x0 : Rows) (x1 x2 : Edges) :
    val_main_v25 (F := Ideal) x0 x1 x2 = aggregate (F := Ideal) (val_main_v15 (F := Ideal) x0 x1) x1 x2 := by
  unfold val_main_v25 val_main_v23 val_main_cst_7 val_main_v24 val_main_v22 val_main_v21 val_main_v20 val_main_v17 val_main_v16
    val_main_c val_main_v19 val_main_v18 val_main_c_6 aggregate
  rfl

/-- The reference's second aggregate is the aggregation of its source-scaled first-layer output. -/
theorem aggregate_second (x0 : Rows) (x1 x2 : Edges) (x3 : Weights) (x4 : Bias) :
    val_main_v46 (F := Ideal) x0 x1 x2 x3 x4 = aggregate (F := Ideal) (val_main_v36 (F := Ideal) x0 x1 x2 x3 x4) x1 x2 := by
  unfold val_main_v46 val_main_v44 val_main_cst_10 val_main_v45 val_main_v43 val_main_v42 val_main_v41 val_main_v38 val_main_v37
    val_main_c_8 val_main_v40 val_main_v39 val_main_c_9 aggregate
  rfl

/-- The reference's result, from the last stage back to the arguments. -/
theorem reference_result (x0 : Rows) (x1 x2 : Edges) (x3 : Weights) (x4 : Bias) (x5 : Weights) (x6 : Bias) :
    val_main_v54 (F := Ideal) x0 x1 x2 x3 x4 x5 x6
      = denseRelu (aggregate (F := Ideal)
          (scaleRows (denseRelu (aggregate (F := Ideal) (scaleRows x0 (degreeNorm (F := Ideal) x1)) x1 x2) (degreeNorm (F := Ideal) x2) x3 x4)
            (degreeNorm (F := Ideal) x1)) x1 x2) (degreeNorm (F := Ideal) x2) x5 x6 := by
  rw [dense_second, aggregate_second, scale_second, dense_first, aggregate_first, scale_first, norm_source, norm_dest]

end Cert.Bridge

end
-- ==== Proof.lean ====
/-
  Two graph-convolution layers: the tiled program against the plain one, on the extended reals.

  Both programs take node features (50000 x 128), two edge lists (600000 sources, 600000 destinations), and two
  pairs of a 128 x 128 weight matrix and a bias of 128 entries.  From the edge lists they compute the two degree norms
  (count the edges at each node, clip below at one, raise to the power -1/2), and then run twice:

      scale row i of the features by the source norm of i;
      sum the scaled rows along the edges into their destinations;
      scale row i of the sums by the destination norm of i, multiply by the weights, add the bias to every row,
      take the maximum with zero.

  The plain program does each step on whole arrays.  The tiled program does the two entrywise steps of each layer
  2000 rows at a time (25 row blocks), narrowing the matrix product's factors to a shorter float format before
  multiplying; the norms and the sums along edges are the same operations in both.  On the extended reals a change
  of float format is the identity and a product accumulated from zero is the plain sum of products, so each block of
  the tiled program holds exactly the entries of the plain program's array, term for term; the blocks tile the
  arrays, and the two results are one function of the arguments.  No entry needs to be finite for this.

  The modules: LayerSpec (the two entrywise steps as functions of an index), Payload (what a tile's body stores,
  at an entry), ScaleFirst / DenseFirst / ScaleSecond / DenseSecond (each tiled step as a function of the whole
  arrays it finds), HostChain (the norms, the sums along edges, and what each run of host operations leaves),
  KernelLayer and KernelValue (the tiled program's result as one expression of the arguments), RunResult (its run,
  with the result named), RefLayer and Bridge (the plain program's result as the same expression).
-/
import proofs.«174286_j515396075767_1_alg».proof.Defs
import proofs.«174286_j515396075767_1_alg».proof.Proof.Gen.Kernel
import proofs.«174286_j515396075767_1_alg».proof.Proof.Gen.Kernel.Skeleton
import proofs.«174286_j515396075767_1_alg».proof.Proof.Gen.Kernel.Launch
import proofs.«174286_j515396075767_1_alg».proof.Proof.Gen.Kernel.Points
import proofs.«174286_j515396075767_1_alg».proof.Proof.Gen.Kernel.Frame
import proofs.«174286_j515396075767_1_alg».proof.Proof.Gen.KernelIdeal
import proofs.«174286_j515396075767_1_alg».proof.Proof.Gen.KernelIdeal.Skeleton
import proofs.«174286_j515396075767_1_alg».proof.Proof.Gen.KernelIdeal.Launch
import proofs.«174286_j515396075767_1_alg».proof.Proof.Gen.KernelIdeal.Points
import proofs.«174286_j515396075767_1_alg».proof.Proof.Gen.KernelIdeal.Frame
import proofs.«174286_j515396075767_1_alg».proof.Proof.Gen.ReferenceIdeal
import proofs.«174286_j515396075767_1_alg».proof.Proof.Gen.ReferenceIdeal.Run
import proofs.«174286_j515396075767_1_alg».proof.Proof.Gen.ReferenceIdeal.Read
import proofs.«174286_j515396075767_1_alg».proof.Proof.Gen.Pre_finite_inputs
import proofs.«174286_j515396075767_1_alg».proof.Proof.RunResult
import proofs.«174286_j515396075767_1_alg».proof.Proof.KernelValue
import proofs.«174286_j515396075767_1_alg».proof.Proof.Bridge
import Idealize.ShloMosaic.Adequacy
import Idealize.ShloMosaic.Init

noncomputable section

namespace Cert.Proof

open Idealize.ShloMosaic Idealize.SL.Sem Cert.Kernel

/-- The tiled program as printed runs to the end without a fault and leaves its arguments alone. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- So does the plain program: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the tiled program was rewritten for its reading on the extended reals. -/
theorem preserves : Cert.preserves_Kernel_KernelIdeal := trivial

/-- From memories that agree on the arguments both programs end with the second layer's output of those arguments
    in their result arrays. -/
theorem algebraic : Cert.algebraic_KernelIdeal_ReferenceIdeal := by
  intro m ρ m' ρ' _ hagree
  refine ⟨fun c => Cert.KernelIdeal.Walk.output m c, ?_, ?_⟩
  · exact (θ_run Cert.KernelIdeal.defs _ _).mono
      (fun _ h c => ⟨(h c).1.trans (Cert.KernelIdeal.Walk.result m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [Cert.ReferenceIdeal.Read.val_main_v54_eq, Cert.Bridge.reference_result, e0, e1, e2, e3, e4, e5, e6]
    show _ = Cert.KernelIdeal.Walk.output m c
    unfold Cert.KernelIdeal.Walk.output Cert.KernelIdeal.Walk.hidden
    rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
